-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  main_v23

def fn {F : FTy → Type} [FloatOps F] (main_arg0 : FVec F S8192x4096 .f32) (main_arg1 : FVec F S8192x4096 .f32) (main_arg2 : FVec F S4096x4096 .f32) (main_arg3 : FVec F S4096x4096 .f32) (main_arg4 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S_ : Shape := ⟨0, ![]⟩
abbrev S512x256 : Shape := ⟨2, ![512, 256]⟩
abbrev S4096x256 : Shape := ⟨2, ![4096, 256]⟩
abbrev S512x4096 : Shape := ⟨2, ![512, 4096]⟩

abbrev nBuf : Space → Nat
  | .hbm => 39
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .bf16⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | .hbm, ⟨25, _⟩ => ⟨S4096x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .bf16⟩
  | .hbm, ⟨35, _⟩ => ⟨S8192x4096, .bf16⟩
  | .hbm, ⟨36, _⟩ => ⟨S8192x4096, .bf16⟩
  | .hbm, ⟨37, _⟩ => ⟨S8192x4096, .f32⟩
  | .hbm, ⟨38, _⟩ => ⟨S8192x4096, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S512x4096, .f32⟩
  | .local _ .vmem, ⟨9, _⟩ => ⟨S512x256, .f32⟩
  | .local _ .vmem, ⟨10, _⟩ => ⟨S512x256, .f32⟩
  | .local _ .vmem, ⟨11, _⟩ => ⟨S4096x256, .bf16⟩
  | .local _ .vmem, ⟨12, _⟩ => ⟨S4096x256, .bf16⟩
  | .local _ .vmem, ⟨13, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_cst_2 : Ref sig .tc := ⟨.hbm, 17, rfl⟩
abbrev main_call3_v0 : Ref sig .tc := ⟨.hbm, 18, rfl⟩
abbrev main_call3_v1 : Ref sig .tc := ⟨.hbm, 19, rfl⟩
abbrev main_call3_v2 : Ref sig .tc := ⟨.hbm, 20, rfl⟩
abbrev main_call3_v3 : Ref sig .tc := ⟨.hbm, 21, rfl⟩
abbrev main_call3_v4 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_3 : Ref sig .tc := ⟨.hbm, 26, rfl⟩
abbrev main_cst_4 : Ref sig .tc := ⟨.hbm, 27, rfl⟩
abbrev main_call5_v0 : Ref sig .tc := ⟨.hbm, 28, rfl⟩
abbrev main_call5_v1 : Ref sig .tc := ⟨.hbm, 29, rfl⟩
abbrev main_call5_v2 : Ref sig .tc := ⟨.hbm, 30, rfl⟩
abbrev main_call5_v3 : Ref sig .tc := ⟨.hbm, 31, rfl⟩
abbrev main_call5_v4 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S512x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S512x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

class Facts₀ : Prop where
  bcast_S_S4096x4096 : S_.BroadcastsInDim S4096x4096 (![] : Fin 0 → Fin S4096x4096.rank)
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S512x4096_S512x4096 : S512x4096.ShapeCasts S512x4096
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x4096.size a
  hwx0_0 : ∀ i : grid0.Coords, EltTy.bits .bf16 = 32 ∨ (Rect.block (s := S8192x4096) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x4096.size a
  hwx0_1 : ∀ i : grid0.Coords, EltTy.bits .bf16 = 32 ∨ (Rect.block (s := S8192x4096) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x4096.size a
  hwx0_2 : ∀ i : grid0.Coords, EltTy.bits .bf16 = 32 ∨ (Rect.block (s := S4096x4096) S4096x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x4096.size a
  hwx0_3 : ∀ i : grid0.Coords, EltTy.bits .bf16 = 32 ∨ (Rect.block (s := S4096x4096) S4096x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x4096.size a
  hwx1_0 : ∀ i : grid1.Coords, EltTy.bits .f32 = 32 ∨ (Rect.block (s := S8192x4096) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x4096.size a
  hwx1_1 : ∀ i : grid1.Coords, EltTy.bits .bf16 = 32 ∨ (Rect.block (s := S4096x4096) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S8192x4096.size a
  hwx1_2 : ∀ i : grid1.Coords, EltTy.bits .f32 = 32 ∨ (Rect.block (s := S8192x4096) S512x4096.size (cc1_transform_2 i) (hinb1_2 i)).WholeWords (EltTy.packing .f32)

variable [Facts₀]

def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_v9) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S512x4096.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v11) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S512x4096.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S8192x4096, .f32⟩
  | .hbm, ⟨18, _⟩ => ⟨S4096x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S4096x4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_cst_2 : Ref sig .tc := ⟨.hbm, 20, rfl⟩
abbrev main_call3_v0 : Ref sig .tc := ⟨.hbm, 21, rfl⟩
abbrev main_call3_v1 : Ref sig .tc := ⟨.hbm, 22, rfl⟩
abbrev main_call3_v2 : Ref sig .tc := ⟨.hbm, 23, rfl⟩
abbrev main_call3_v3 : Ref sig .tc := ⟨.hbm, 24, rfl⟩
abbrev main_call3_v4 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_cst_4 : Ref sig .tc := ⟨.hbm, 34, rfl⟩
abbrev main_call5_v0 : Ref sig .tc := ⟨.hbm, 35, rfl⟩
abbrev main_call5_v1 : Ref sig .tc := ⟨.hbm, 36, rfl⟩
abbrev main_call5_v2 : Ref sig .tc := ⟨.hbm, 37, rfl⟩
abbrev main_call5_v3 : Ref sig .tc := ⟨.hbm, 38, rfl⟩
abbrev main_call5_v4 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_5 : Ref sig .tc := ⟨.hbm, 44, rfl⟩
abbrev main_cst_6 : Ref sig .tc := ⟨.hbm, 45, rfl⟩
abbrev main_call7_v0 : Ref sig .tc := ⟨.hbm, 46, rfl⟩
abbrev main_call7_v1 : Ref sig .tc := ⟨.hbm, 47, rfl⟩
abbrev main_call7_v2 : Ref sig .tc := ⟨.hbm, 48, rfl⟩
abbrev main_call7_v3 : Ref sig .tc := ⟨.hbm, 49, rfl⟩
abbrev main_call7_v4 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.RunValue.lean ====
/-
  The idealized kernel program's run with its two results named.

  The program is twelve stretches of host operations followed by two kernel regions.  Every weakly fair execution
  terminates, and in the final state every buffer that is not scoped to a region holds what the chain of boundary
  contents leaves in it: in particular the two result arrays hold the last boundary's contents, and the five
  argument arrays are as launched.  This is the frame statement with two more buffers read at the end.
-/
import proofs.«108138_j15015205666917_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the output array and the new hidden state end at the last
    boundary's contents, the arguments as launched. -/
theorem run_results : θ_run defs (onTc (τ := τ) (main (F := F))) ⟨m, fun _ => 0, ρ⟩ (fun r => ∀ c : Dev nD,
      r.2.mem ((c.tc : Thread nD τ).loc main_v12) = W14 m ρ c (Proc.devRef .tc main_v12)
      ∧ r.2.mem ((c.tc : Thread nD τ).loc main_v11) = W14 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v12 (by decide)),
       h c _ (mem_uc main_v11 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c)⟩)

end Cert.KernelIdeal.RunValue

end
-- ==== Proof.Pieces.lean ====
/-
  What each control case of the two kernel bodies leaves in its output block, as a composition of the body's store
  payloads.

  First kernel (one grid point = one block of 512 rows and one group of 256 contraction indices): the block is zeroed
  at the first group, then the two partial products are added to it one after the other, and at the last group the
  block is rounded and clamped.  Second kernel: zeroed at the first group, one partial product added per point.
  Every store writes the whole block, so after a point the block holds the LAST store's payload, and a load that
  follows a store reads that store's payload.
-/
import proofs.«108138_j15015205666917_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A load of the whole block after a list of stores whose last one wrote the whole block reads that store's payload. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-! ## First kernel -/

/-- First group of a row block: zero, plus the input product, plus the hidden product. -/
theorem out0_A (c : Dev nD) (i : grid0.Coords) (a2 : Memref sig .tc .vmem S512x256 .bf16) (h2 : a2.IsWhole)
    (a3 : Memref sig .tc .vmem S512x256 .bf16) (h3 : a3.IsWhole) (a4 : Memref sig .tc .vmem S4096x256 .bf16) (h4 : a4.IsWhole)
    (a5 : Memref sig .tc .vmem S4096x256 .bf16) (h5 : a5.IsWhole) (a6 : Memref sig .tc .vmem S512x4096 .f32) (h6 : a6.IsWhole)
    (hc0 : cond0_0 i) (hc1 : ¬cond0_1 i) (x0 x1 : Vec F S512x256 .bf16) (x2 x3 : Vec F S4096x256 .bf16) :
    out0_A_4 c i a2 h2 a3 h3 a4 h4 a5 h5 a6 h6 hc0 hc1 x0 x1 x2 x3 = k0_pay3 x1 x3 (k0_pay2 x0 x2 k0_pay1) := by
  unfold out0_A_4
  rw [View.read_writes_eq_canon _ _ _ (cover0_A_4 c i a2 h2 a3 h3 a4 h4 a5 h5 a6 h6 hc0 hc1 x0 x1 x2 x3)]
  unfold kernelRun0_A
  dsimp only
  sl_unfold_words
  rw [View.canon_cons_unit_zero (S := S512x4096) hz]
  simp only [View.readAt_eq_ld, h2.read_unread, h3.read_unread, h4.read_unread, h5.read_unread, h6.read_unread,
    View.ld_unit_zero (S := S512x256) hz, View.ld_unit_zero (S := S4096x256) hz, View.ld_unit_zero (S := S512x4096) hz,
    readCov_cons_whole (S := S512x4096) _ hz]

/-- A middle group: what the block held, plus the input product, plus the hidden product. -/
theorem out0_B (c : Dev nD) (i : grid0.Coords) (a2 : Memref sig .tc .vmem S512x256 .bf16) (h2 : a2.IsWhole)
    (a3 : Memref sig .tc .vmem S512x256 .bf16) (h3 : a3.IsWhole) (a4 : Memref sig .tc .vmem S4096x256 .bf16) (h4 : a4.IsWhole)
    (a5 : Memref sig .tc .vmem S4096x256 .bf16) (h5 : a5.IsWhole) (a6 : Memref sig .tc .vmem S512x4096 .f32) (h6 : a6.IsWhole)
    (hc0 : ¬cond0_0 i) (hc1 : ¬cond0_1 i) (x0 x1 : Vec F S512x256 .bf16) (x2 x3 : Vec F S4096x256 .bf16) (xo : Vec F S512x4096 .f32) :
    out0_B_4 c i a2 h2 a3 h3 a4 h4 a5 h5 a6 h6 hc0 hc1 x0 x1 x2 x3 xo = k0_pay3 x1 x3 (k0_pay2 x0 x2 xo) := by
  unfold out0_B_4
  rw [View.read_writes_eq_canon _ _ _ (cover0_B_4 c i a2 h2 a3 h3 a4 h4 a5 h5 a6 h6 hc0 hc1 x0 x1 x2 x3 xo)]
  unfold kernelRun0_B
  dsimp only
  sl_unfold_words
  rw [View.canon_cons_unit_zero (S := S512x4096) hz]
  simp only [View.readAt_eq_ld, h2.read_unread, h3.read_unread, h4.read_unread, h5.read_unread, h6.read_unread,
    View.ld_unit_zero (S := S512x256) hz, View.ld_unit_zero (S := S4096x256) hz, View.ld_unit_zero (S := S512x4096) hz,
    readCov_cons_whole (S := S512x4096) _ hz]

/-- The last group: the same two additions, then rounding and clamping. -/
theorem out0_C (c : Dev nD) (i : grid0.Coords) (a2 : Memref sig .tc .vmem S512x256 .bf16) (h2 : a2.IsWhole)
    (a3 : Memref sig .tc .vmem S512x256 .bf16) (h3 : a3.IsWhole) (a4 : Memref sig .tc .vmem S4096x256 .bf16) (h4 : a4.IsWhole)
    (a5 : Memref sig .tc .vmem S4096x256 .bf16) (h5 : a5.IsWhole) (a6 : Memref sig .tc .vmem S512x4096 .f32) (h6 : a6.IsWhole)
    (hc0 : ¬cond0_0 i) (hc1 : cond0_1 i) (x0 x1 : Vec F S512x256 .bf16) (x2 x3 : Vec F S4096x256 .bf16) (xo : Vec F S512x4096 .f32) :
    out0_C_4 c i a2 h2 a3 h3 a4 h4 a5 h5 a6 h6 hc0 hc1 x0 x1 x2 x3 xo = k0_pay4 (k0_pay3 x1 x3 (k0_pay2 x0 x2 xo)) := by
  unfold out0_C_4
  rw [View.read_writes_eq_canon _ _ _ (cover0_C_4 c i a2 h2 a3 h3 a4 h4 a5 h5 a6 h6 hc0 hc1 x0 x1 x2 x3 xo)]
  unfold kernelRun0_C
  dsimp only
  sl_unfold_words
  rw [View.canon_cons_unit_zero (S := S512x4096) hz]
  simp only [View.readAt_eq_ld, h2.read_unread, h3.read_unread, h4.read_unread, h5.read_unread, h6.read_unread,
    View.ld_unit_zero (S := S512x256) hz, View.ld_unit_zero (S := S4096x256) hz, View.ld_unit_zero (S := S512x4096) hz,
    readCov_cons_whole (S := S512x4096) _ hz]

/-! ## Second kernel -/

/-- First group: zero plus the product. -/
theorem out1_A (c : Dev nD) (i : grid1.Coords) (a2 : Memref sig .tc .vmem S512x256 .f32) (h2 : a2.IsWhole)
    (a3 : Memref sig .tc .vmem S4096x256 .bf16) (h3 : a3.IsWhole) (a4 : Memref sig .tc .vmem S512x4096 .f32) (h4 : a4.IsWhole)
    (hc0 : cond1_0 i) (x0 : Vec F S512x256 .f32) (x1 : Vec F S4096x256 .bf16) :
    out1_A_2 c i a2 h2 a3 h3 a4 h4 hc0 x0 x1 = k1_pay2 x0 x1 k1_pay1 := by
  unfold out1_A_2
  rw [View.read_writes_eq_canon _ _ _ (cover1_A_2 c i a2 h2 a3 h3 a4 h4 hc0 x0 x1)]
  unfold kernelRun1_A
  dsimp only
  sl_unfold_words
  rw [View.canon_cons_unit_zero (S := S512x4096) hz]
  simp only [View.readAt_eq_ld, h2.read_unread, h3.read_unread, h4.read_unread,
    View.ld_unit_zero (S := S512x256) hz, View.ld_unit_zero (S := S4096x256) hz, View.ld_unit_zero (S := S512x4096) hz,
    readCov_cons_whole (S := S512x4096) _ hz]

/-- A later group: what the block held plus the product. -/
theorem out1_B (c : Dev nD) (i : grid1.Coords) (a2 : Memref sig .tc .vmem S512x256 .f32) (h2 : a2.IsWhole)
    (a3 : Memref sig .tc .vmem S4096x256 .bf16) (h3 : a3.IsWhole) (a4 : Memref sig .tc .vmem S512x4096 .f32) (h4 : a4.IsWhole)
    (hc0 : ¬cond1_0 i) (x0 : Vec F S512x256 .f32) (x1 : Vec F S4096x256 .bf16) (xo : Vec F S512x4096 .f32) :
    out1_B_2 c i a2 h2 a3 h3 a4 h4 hc0 x0 x1 xo = k1_pay2 x0 x1 xo := by
  unfold out1_B_2
  rw [View.read_writes_eq_canon _ _ _ (cover1_B_2 c i a2 h2 a3 h3 a4 h4 hc0 x0 x1 xo)]
  unfold kernelRun1_B
  dsimp only
  sl_unfold_words
  rw [View.canon_cons_unit_zero (S := S512x4096) hz]
  simp only [View.readAt_eq_ld, h2.read_unread, h3.read_unread, h4.read_unread,
    View.ld_unit_zero (S := S512x256) hz, View.ld_unit_zero (S := S4096x256) hz, View.ld_unit_zero (S := S512x4096) hz,
    readCov_cons_whole (S := S512x4096) _ hz]

end Cert.KernelIdeal.Pieces

end
-- ==== Proof.Spec.lean ====
/-
  The mathematics both programs compute, stated once over plain arrays of extended reals.

  A weight w is quantized to tern w = min 1 (max (-1) (round-half-even w)), always one of -1, 0, 1 for a real w and in
  any case a real number between -1 and 1.  With x, h of shape [8192, 4096] and wi, wh, wo of shape [4096, 4096]:
    pre  (r, c) = sum_k x (r, k) * tern (wi (c, k)) + sum_k h (r, k) * tern (wh (c, k))
    hnew (r, c) = tern (pre (r, c))
    outp (r, c) = sum_k hnew (r, k) * tern (wo (c, k)).
  Also here: the few facts about extended reals the two sides need (a sum of real numbers is real; a + (q - a) = q
  for a real a), the splitting of a sum over 4096 terms into 16 consecutive groups of 256, and the left-nested running
  sum ((0 + A 0) + B 0) + A 1) + B 1 ... as the two separate sums.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev Big : Shape := ⟨2, ![8192, 4096]⟩
abbrev Sq : Shape := ⟨2, ![4096, 4096]⟩

/-- The word 0x3F800000 is the real number 1. -/
theorem ofBits_one : Ideal.ofBits .f32 0x3F800000#32 = 1 := by
  simp [Ideal.ofBits, Ideal.ieee, -EReal.coe_mul]; norm_num

/-- The word 0xBF800000 is the real number -1. -/
theorem ofBits_negOne : Ideal.ofBits .f32 0xBF800000#32 = ((-1 : ℝ) : EReal) := by
  simp [Ideal.ofBits, Ideal.ieee, -EReal.coe_mul]; norm_num

/-- Ternary quantization: round to nearest even, then clamp to [-1, 1]. -/
def tern (x : EReal) : EReal :=
  min (Ideal.ofBits .f32 0x3F800000#32) (max (Ideal.ofBits .f32 0xBF800000#32) (Ideal.liftRound Ideal.roundHalfEven x))

/-- An extended real that is a real number. -/
def IsR (x : EReal) : Prop := ∃ r : ℝ, x = (r : EReal)

theorem isR_of_bounds {x : EReal} (hlo : ((-1 : ℝ) : EReal) ≤ x) (hhi : x ≤ ((1 : ℝ) : EReal)) : IsR x := by
  induction x using EReal.rec with
  | bot => exact absurd hlo (not_le.mpr (EReal.bot_lt_coe _))
  | top => exact absurd hhi (not_le.mpr (EReal.coe_lt_top _))
  | coe r => exact ⟨r, rfl⟩

/-- Whatever x is, tern x lies between -1 and 1, so it is a real number. -/
theorem tern_isR (x : EReal) : IsR (tern x) := by
  unfold tern
  rw [ofBits_one, ofBits_negOne]
  refine isR_of_bounds ?_ ?_
  · refine le_min ?_ (le_max_left _ _)
    exact_mod_cast (by norm_num : (-1 : ℝ) ≤ 1)
  · exact (min_le_left _ _).trans (by exact_mod_cast le_refl (1 : ℝ))

theorem isR_zero : IsR 0 := ⟨0, rfl⟩

theorem isR_add {a b : EReal} (ha : IsR a) (hb : IsR b) : IsR (a + b) := by
  obtain ⟨r, rfl⟩ := ha; obtain ⟨s, rfl⟩ := hb; exact ⟨r + s, (EReal.coe_add r s).symm⟩

theorem isR_mul {a b : EReal} (ha : IsR a) (hb : IsR b) : IsR (a * b) := by
  obtain ⟨r, rfl⟩ := ha; obtain ⟨s, rfl⟩ := hb; exact ⟨r * s, (EReal.coe_mul r s).symm⟩

theorem isR_sum {ι : Type*} (s : Finset ι) (f : ι → EReal) (hf : ∀ i ∈ s, IsR (f i)) : IsR (∑ i ∈ s, f i) := by
  classical
  induction s using Finset.induction_on with
  | empty => simpa using isR_zero
  | insert a s ha ih =>
    rw [Finset.sum_insert ha]
    exact isR_add (hf a (Finset.mem_insert_self a s)) (ih fun i hi => hf i (Finset.mem_insert_of_mem hi))

/-- For a real a: a + (q - a) = q, whatever the extended real q. -/
theorem add_sub_cancel_isR {a : EReal} (q : EReal) (ha : IsR a) : a + (q - a) = q := by
  obtain ⟨r, rfl⟩ := ha
  induction q using EReal.rec with
  | bot => simp
  | top => simp
  | coe s => rw [← EReal.coe_sub, ← EReal.coe_add]; congr 1; ring

/-- The pre-activation at row r, column c. -/
def pre (x h : Big.Idx → EReal) (wi wh : Sq.Idx → EReal) (r : Fin 8192) (c : Fin 4096) : EReal :=
  (∑ k : Fin 4096, x (ix2 r k) * tern (wi (ix2 c k))) + ∑ k : Fin 4096, h (ix2 r k) * tern (wh (ix2 c k))

/-- The new hidden state: the quantized pre-activation. -/
def hnew (x h : Big.Idx → EReal) (wi wh : Sq.Idx → EReal) : Big.Idx → EReal :=
  fun i => tern (pre x h wi wh (i 0) (i 1))

/-- The output: the new hidden state times the quantized output weights, transposed. -/
def outp (x h : Big.Idx → EReal) (wi wh wo : Sq.Idx → EReal) : Big.Idx → EReal :=
  fun i => ∑ k : Fin 4096, hnew x h wi wh (ix2 (i 0) k) * tern (wo (ix2 (i 1) k))

theorem pre_isR (x h : Big.Idx → EReal) (wi wh : Sq.Idx → EReal) (hx : ∀ i, IsR (x i)) (hh : ∀ i, IsR (h i))
    (r : Fin 8192) (c : Fin 4096) : IsR (pre x h wi wh r c) :=
  isR_add (isR_sum _ _ fun k _ => isR_mul (hx _) (tern_isR _)) (isR_sum _ _ fun k _ => isR_mul (hh _) (tern_isR _))

/-- A sum over 4096 terms is the sum over 16 consecutive groups of 256. -/
theorem sum_blocks {M : Type*} [AddCommMonoid M] (g : Fin 4096 → M) :
    ∑ n : Fin 4096, g n = ∑ k : Fin 16, ∑ j : Fin 256, g ⟨256 * k.val + j.val, by have := k.isLt; have := j.isLt; omega⟩ := by
  rw [← Equiv.sum_comp (finProdFinEquiv : Fin 16 × Fin 256 ≃ Fin 4096) g, Fintype.sum_prod_type]
  refine Finset.sum_congr rfl fun k _ => Finset.sum_congr rfl fun j _ => congrArg g (Fin.ext ?_)
  show j.val + 256 * k.val = 256 * k.val + j.val
  omega

/-- The running value after step n of: start at 0, then at each step add A k and then B k. -/
def chain (A B : ℕ → EReal) : ℕ → EReal
  | 0 => (0 + A 0) + B 0
  | n + 1 => (chain A B n + A (n + 1)) + B (n + 1)

/-- Addition of extended reals is commutative and associative, so the running value is the two sums. -/
theorem chain_eq (A B : ℕ → EReal) (n : ℕ) :
    chain A B n = (∑ k ∈ Finset.range (n + 1), A k) + ∑ k ∈ Finset.range (n + 1), B k := by
  induction n with
  | zero => simp [chain]
  | succ n ih =>
    rw [chain, ih, Finset.sum_range_succ (fun k => A k) (n + 1), Finset.sum_range_succ (fun k => B k) (n + 1)]
    abel

end Cert.Spec

end
-- ==== Proof.Payload.lean ====
/-
  The store payloads of the two kernel bodies read at an entry (p, q) of the 512 x 4096 block, over the extended reals.

  The matrix product of a 512 x 256 block l with the transpose of a 4096 x 256 block r into a zero accumulator is, at
  (p, q), the sum over j < 256 of l (p, j) * r (q, j).  The two accumulating stores add such a product to what the
  block held; the last store rounds to the nearest even integer and clamps to [-1, 1]; the first stores zero.
-/
import proofs.«108138_j15015205666917_2_alg».proof.Proof.Gen.KernelIdeal.Skeleton
import proofs.«108138_j15015205666917_2_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- The contraction: axis 1 of both operands; the left operand's rows and the right operand's rows remain. -/
abbrev D : DotDims S512x256 S4096x256 S512x4096 := dot_S512x256_S4096x256_S512x4096_1_1_0_0_n_n

theorem lhs_0 (i : S512x4096.Idx) (k : D.contr.Idx) : (D.lhsIdx i k 0).val = (i 0).val := by
  unfold DotDims.lhsIdx
  rw [dif_neg (show ¬(0 : Fin S512x256.rank) ∈ D.lhsBatch by decide), dif_pos (show (0 : Fin S512x256.rank) ∈ D.lhsNonContracting by decide)]
  rfl
theorem lhs_1 (i : S512x4096.Idx) (k : D.contr.Idx) : (D.lhsIdx i k 1).val = (k ⟨0, by decide⟩).val :=
  D.lhsIdx_val_of_single rfl i k
theorem rhs_0 (i : S512x4096.Idx) (k : D.contr.Idx) : (D.rhsIdx i k 0).val = (i 1).val := by
  unfold DotDims.rhsIdx
  rw [dif_neg (show ¬(0 : Fin S4096x256.rank) ∈ D.rhsBatch by decide), dif_pos (show (0 : Fin S4096x256.rank) ∈ D.rhsNonContracting by decide)]
  rfl
theorem rhs_1 (i : S512x4096.Idx) (k : D.contr.Idx) : (D.rhsIdx i k 1).val = (k ⟨0, by decide⟩).val :=
  D.rhsIdx_val_of_single rfl i k

/-- The block product into a zero accumulator, at (p, q). -/
theorem mm_apply {φ₁ φ₂ : FTy} (l : FVec Ideal S512x256 φ₁) (r : FVec Ideal S4096x256 φ₂) (p : Fin 512) (q : Fin 4096) :
    matmul D none l r (constant S512x4096 .f32 0x00000000#32) (ix2 p q) = ∑ j : Fin 256, l (ix2 p j) * r (ix2 q j) := by
  refine (Ideal.matmul_constant_zero_apply D none l r (ix2 p q)).trans ?_
  rw [← Equiv.sum_comp (contrEquiv1 D 256 rfl rfl).symm]
  refine Finset.sum_congr rfl fun j _ => ?_
  have hk := contrEquiv1_symm_val D 256 rfl rfl j
  have el : D.lhsIdx (ix2 p q) ((contrEquiv1 D 256 rfl rfl).symm j) = ix2 p j := funext fun a => Fin.ext (by
    match a with
    | ⟨0, _⟩ => exact lhs_0 _ _
    | ⟨1, _⟩ => exact (lhs_1 _ _).trans hk)
  have er : D.rhsIdx (ix2 p q) ((contrEquiv1 D 256 rfl rfl).symm j) = ix2 q j := funext fun a => Fin.ext (by
    match a with
    | ⟨0, _⟩ => exact rhs_0 _ _
    | ⟨1, _⟩ => exact (rhs_1 _ _).trans hk)
  rw [el, er]

/-- The zeroing store. -/
theorem pay0_1_apply (y : S512x4096.Idx) : k0_pay1 (F := Ideal) y = 0 := by
  unfold k0_pay1
  show Ideal.ofBits .f32 0x00000000#32 = 0
  exact Ideal.ofBits_zero_f32

theorem pay1_1_apply (y : S512x4096.Idx) : k1_pay1 (F := Ideal) y = 0 := by
  unfold k1_pay1
  show Ideal.ofBits .f32 0x00000000#32 = 0
  exact Ideal.ofBits_zero_f32

/-- The first accumulating store: what the block held plus the input product. -/
theorem pay0_2_apply (x0 : Vec Ideal S512x256 .bf16) (x2 : Vec Ideal S4096x256 .bf16) (xo : Vec Ideal S512x4096 .f32)
    (p : Fin 512) (q : Fin 4096) :
    k0_pay2 x0 x2 xo (ix2 p q) = xo (ix2 p q) + ∑ j : Fin 256, x0 (ix2 p j) * x2 (ix2 q j) := by
  unfold k0_pay2
  rw [shapeCast_self, shapeCast_self, shapeCast_self, addf_apply]
  exact congrArg (xo (ix2 p q) + ·) (mm_apply x0 x2 p q)

/-- The second accumulating store: what the block held plus the hidden product. -/
theorem pay0_3_apply (x1 : Vec Ideal S512x256 .bf16) (x3 : Vec Ideal S4096x256 .bf16) (xo : Vec Ideal S512x4096 .f32)
    (p : Fin 512) (q : Fin 4096) :
    k0_pay3 x1 x3 xo (ix2 p q) = xo (ix2 p q) + ∑ j : Fin 256, x1 (ix2 p j) * x3 (ix2 q j) := by
  unfold k0_pay3
  rw [shapeCast_self, shapeCast_self, shapeCast_self, addf_apply]
  exact congrArg (xo (ix2 p q) + ·) (mm_apply x1 x3 p q)

/-- The last store of the first kernel: rounding and clamping. -/
theorem pay0_4_apply (v : Vec Ideal S512x4096 .f32) (y : S512x4096.Idx) :
    k0_pay4 v y = Cert.Spec.tern (v y) := by
  unfold k0_pay4
  rw [shapeCast_self]
  rfl

/-- The second kernel's accumulating store (its left operand narrowed to bf16 first: the identity here). -/
theorem pay1_2_apply (x0 : Vec Ideal S512x256 .f32) (x1 : Vec Ideal S4096x256 .bf16) (xo : Vec Ideal S512x4096 .f32)
    (p : Fin 512) (q : Fin 4096) :
    k1_pay2 x0 x1 xo (ix2 p q) = xo (ix2 p q) + ∑ j : Fin 256, x0 (ix2 p j) * x1 (ix2 q j) := by
  unfold k1_pay2
  rw [shapeCast_self, shapeCast_self, shapeCast_self, addf_apply]
  exact congrArg (xo (ix2 p q) + ·) (mm_apply (truncf .bf16 x0 bitsLt_bf16_f32) x1 p q)

end Cert.KernelIdeal.Payload

end
-- ==== Proof.Blocks.lean ====
/-
  Arrays read at natural-number positions, and the partial product of one group of 256 contraction indices.

  at2 X a b is the entry of the array X at row a, column b (zero outside the array, which never happens below).
  blockDot X W r q k is the k-th partial product sum_{j < 256} X (r, 256 k + j) * W (q, 256 k + j); the sixteen
  partial products add up to the whole product sum_{n < 4096} X (r, n) * W (q, n).  stage k v is the value a block
  entry holds after group k when its running sum is v: rounded and clamped after the last group, plain before.
-/
import proofs.«108138_j15015205666917_2_alg».proof.Proof.Spec

noncomputable section

namespace Cert.Spec

open Idealize.ShloMosaic Idealize.ShloMosaic.ValueIdx

def at2 {n0 n1 : Nat} (X : (⟨2, ![n0, n1]⟩ : Shape).Idx → EReal) (a b : ℕ) : EReal :=
  if h : a < n0 ∧ b < n1 then X (ix2 ⟨a, h.1⟩ ⟨b, h.2⟩) else 0

theorem at2_of_lt {n0 n1 : Nat} (X : (⟨2, ![n0, n1]⟩ : Shape).Idx → EReal) (a b : ℕ) (ha : a < n0) (hb : b < n1) :
    at2 X a b = X (ix2 ⟨a, ha⟩ ⟨b, hb⟩) := dif_pos ⟨ha, hb⟩

/-- The k-th partial product of row r of X with row q of W. -/
def blockDot (X : Big.Idx → EReal) (W : Sq.Idx → EReal) (r q k : ℕ) : EReal :=
  ∑ j : Fin 256, at2 X r (256 * k + j.val) * at2 W q (256 * k + j.val)

/-- The sixteen partial products add up to the whole product. -/
theorem sum_blockDot (X : Big.Idx → EReal) (W : Sq.Idx → EReal) (r : Fin 8192) (q : Fin 4096) :
    ∑ k ∈ Finset.range 16, blockDot X W r.val q.val k = ∑ n : Fin 4096, X (ix2 r n) * W (ix2 q n) := by
  rw [sum_blocks (fun n => X (ix2 r n) * W (ix2 q n)), ← Fin.sum_univ_eq_sum_range (fun k => blockDot X W r.val q.val k) 16]
  refine Finset.sum_congr rfl fun k _ => Finset.sum_congr rfl fun j _ => ?_
  have hk := k.isLt
  have hj := j.isLt
  exact congrArg₂ (· * ·) (at2_of_lt X r.val (256 * k.val + j.val) r.isLt (by omega))
    (at2_of_lt W q.val (256 * k.val + j.val) q.isLt (by omega))

/-- What a block entry holds after group k, its running sum being v. -/
def stage (k : ℕ) (v : EReal) : EReal := if k = 15 then tern v else v

/-- The running sum of the first kernel at row r, column q after group k. -/
def run0 (X H : Big.Idx → EReal) (WI WH : Sq.Idx → EReal) (r q k : ℕ) : EReal :=
  chain (blockDot X WI r q) (blockDot H WH r q) k

/-- After the last group the running sum is the pre-activation's two whole products. -/
theorem run0_last (X H : Big.Idx → EReal) (WI WH : Sq.Idx → EReal) (r : Fin 8192) (q : Fin 4096) :
    run0 X H WI WH r.val q.val 15 = (∑ n : Fin 4096, X (ix2 r n) * WI (ix2 q n)) + ∑ n : Fin 4096, H (ix2 r n) * WH (ix2 q n) := by
  unfold run0
  rw [chain_eq, sum_blockDot, sum_blockDot]

/-- The running sum of the second kernel: start at 0, add one partial product per group. -/
def run1 (X : Big.Idx → EReal) (W : Sq.Idx → EReal) (r q : ℕ) : ℕ → EReal
  | 0 => 0 + blockDot X W r q 0
  | n + 1 => run1 X W r q n + blockDot X W r q (n + 1)

theorem run1_eq (X : Big.Idx → EReal) (W : Sq.Idx → EReal) (r q n : ℕ) :
    run1 X W r q n = ∑ k ∈ Finset.range (n + 1), blockDot X W r q k := by
  induction n with
  | zero => simp [run1]
  | succ n ih => rw [run1, ih, Finset.sum_range_succ (fun k => blockDot X W r q k) (n + 1)]

theorem run1_last (X : Big.Idx → EReal) (W : Sq.Idx → EReal) (r : Fin 8192) (q : Fin 4096) :
    run1 X W r.val q.val 15 = ∑ n : Fin 4096, X (ix2 r n) * W (ix2 q n) := by
  rw [run1_eq, sum_blockDot]

end Cert.Spec

end
-- ==== Proof.BlockReads.lean ====
/-
  The input blocks of the two kernels read at an entry, as entries of the arrays the regions find.

  Grid point t of either 16 x 16 grid is (row block t / 16, contraction group t % 16).  A 512 x 256 block of an
  [8192, 4096] array at that point holds rows 512 (t / 16) + p and columns 256 (t % 16) + j; a 4096 x 256 block of a
  [4096, 4096] weight array holds all rows q and columns 256 (t % 16) + j.
-/
import proofs.«108138_j15015205666917_2_alg».proof.Proof.Gen.KernelIdeal.Frame
import proofs.«108138_j15015205666917_2_alg».proof.Proof.Blocks
import Idealize.ShloMosaic.Lib.Pipeline.Value

noncomputable section

open Idealize.ShloMosaic Idealize.ShloMosaic.TcCoe Idealize.SL.Sem Idealize.ShloMosaic.ValueIdx

namespace Cert.KernelIdeal.BlockReads

open Cert.KernelIdeal Cert.KernelIdeal.Gen Cert.Spec

variable (V : (c : Dev nD) → (b : Ref sig .tc) → Buf (Elt Ideal) ((c : Thread nD τ).loc b))

/-! ## The index maps, decided once over each grid -/

theorem idx0_0 : ∀ t : Fin cfg0.N, win0_0.index t (0 : Fin 2) = t.val / 16 ∧ win0_0.index t (1 : Fin 2) = t.val % 16 :=
  (by decide +kernel : ∀ t : Fin grid0.N, _)
theorem idx0_1 : ∀ t : Fin cfg0.N, win0_1.index t (0 : Fin 2) = t.val / 16 ∧ win0_1.index t (1 : Fin 2) = t.val % 16 :=
  (by decide +kernel : ∀ t : Fin grid0.N, _)
theorem idx0_2 : ∀ t : Fin cfg0.N, win0_2.index t (0 : Fin 2) = 0 ∧ win0_2.index t (1 : Fin 2) = t.val % 16 :=
  (by decide +kernel : ∀ t : Fin grid0.N, _)
theorem idx0_3 : ∀ t : Fin cfg0.N, win0_3.index t (0 : Fin 2) = 0 ∧ win0_3.index t (1 : Fin 2) = t.val % 16 :=
  (by decide +kernel : ∀ t : Fin grid0.N, _)
theorem idx0_4 : ∀ t : Fin cfg0.N, win0_4.index t (0 : Fin 2) = t.val / 16 ∧ win0_4.index t (1 : Fin 2) = 0 :=
  (by decide +kernel : ∀ t : Fin grid0.N, _)
theorem idx1_0 : ∀ t : Fin cfg1.N, win1_0.index t (0 : Fin 2) = t.val / 16 ∧ win1_0.index t (1 : Fin 2) = t.val % 16 :=
  (by decide +kernel : ∀ t : Fin grid1.N, _)
theorem idx1_1 : ∀ t : Fin cfg1.N, win1_1.index t (0 : Fin 2) = 0 ∧ win1_1.index t (1 : Fin 2) = t.val % 16 :=
  (by decide +kernel : ∀ t : Fin grid1.N, _)
theorem idx1_2 : ∀ t : Fin cfg1.N, win1_2.index t (0 : Fin 2) = t.val / 16 ∧ win1_2.index t (1 : Fin 2) = 0 :=
  (by decide +kernel : ∀ t : Fin grid1.N, _)

/-! ## First kernel -/

theorem iblk0_0_at (c : Dev nD) (t : Fin cfg0.N) (p : Fin 512) (j : Fin 256) :
    (iblk0 V c 0 t : Vec Ideal S512x256 .bf16) (ix2 p j)
      = at2 (V c main_v9 : Big.Idx → EReal) (512 * (t.val / 16) + p.val) (256 * (t.val % 16) + j.val) := by
  have hN : cfg0.N = 256 := N_0
  have ht := t.isLt
  have hp := p.isLt
  have hj := j.isLt
  rw [at2_of_lt _ _ _ (by omega) (by omega)]
  unfold iblk0
  rw [View.read_apply]
  show V c main_v9 _ = V c main_v9 _
  refine congrArg _ (funext fun a => Fin.ext ?_)
  match a with
  | ⟨0, _⟩ => show win0_0.index t 0 * 512 + 1 * p.val = 512 * (t.val / 16) + p.val; rw [(idx0_0 t).1]; omega
  | ⟨1, _⟩ => show win0_0.index t 1 * 256 + 1 * j.val = 256 * (t.val % 16) + j.val; rw [(idx0_0 t).2]; omega

theorem iblk0_1_at (c : Dev nD) (t : Fin cfg0.N) (p : Fin 512) (j : Fin 256) :
    (iblk0 V c 1 t : Vec Ideal S512x256 .bf16) (ix2 p j)
      = at2 (V c main_v10 : Big.Idx → EReal) (512 * (t.val / 16) + p.val) (256 * (t.val % 16) + j.val) := by
  have hN : cfg0.N = 256 := N_0
  have ht := t.isLt
  have hp := p.isLt
  have hj := j.isLt
  rw [at2_of_lt _ _ _ (by omega) (by omega)]
  unfold iblk0
  rw [View.read_apply]
  show V c main_v10 _ = V c main_v10 _
  refine congrArg _ (funext fun a => Fin.ext ?_)
  match a with
  | ⟨0, _⟩ => show win0_1.index t 0 * 512 + 1 * p.val = 512 * (t.val / 16) + p.val; rw [(idx0_1 t).1]; omega
  | ⟨1, _⟩ => show win0_1.index t 1 * 256 + 1 * j.val = 256 * (t.val % 16) + j.val; rw [(idx0_1 t).2]; omega

theorem iblk0_2_at (c : Dev nD) (t : Fin cfg0.N) (q : Fin 4096) (j : Fin 256) :
    (iblk0 V c 2 t : Vec Ideal S4096x256 .bf16) (ix2 q j)
      = at2 (V c main_v2 : Sq.Idx → EReal) q.val (256 * (t.val % 16) + j.val) := by
  have hN : cfg0.N = 256 := N_0
  have ht := t.isLt
  have hq := q.isLt
  have hj := j.isLt
  rw [at2_of_lt _ _ _ (by omega) (by omega)]
  unfold iblk0
  rw [View.read_apply]
  show V c main_v2 _ = V c main_v2 _
  refine congrArg _ (funext fun a => Fin.ext ?_)
  match a with
  | ⟨0, _⟩ => show win0_2.index t 0 * 4096 + 1 * q.val = q.val; rw [(idx0_2 t).1]; omega
  | ⟨1, _⟩ => show win0_2.index t 1 * 256 + 1 * j.val = 256 * (t.val % 16) + j.val; rw [(idx0_2 t).2]; omega

theorem iblk0_3_at (c : Dev nD) (t : Fin cfg0.N) (q : Fin 4096) (j : Fin 256) :
    (iblk0 V c 3 t : Vec Ideal S4096x256 .bf16) (ix2 q j)
      = at2 (V c main_v5 : Sq.Idx → EReal) q.val (256 * (t.val % 16) + j.val) := by
  have hN : cfg0.N = 256 := N_0
  have ht := t.isLt
  have hq := q.isLt
  have hj := j.isLt
  rw [at2_of_lt _ _ _ (by omega) (by omega)]
  unfold iblk0
  rw [View.read_apply]
  show V c main_v5 _ = V c main_v5 _
  refine congrArg _ (funext fun a => Fin.ext ?_)
  match a with
  | ⟨0, _⟩ => show win0_3.index t 0 * 4096 + 1 * q.val = q.val; rw [(idx0_3 t).1]; omega
  | ⟨1, _⟩ => show win0_3.index t 1 * 256 + 1 * j.val = 256 * (t.val % 16) + j.val; rw [(idx0_3 t).2]; omega

/-- The partial product of the input block with the input-weight block at a point is the group's partial product. -/
theorem dot0_in (c : Dev nD) (t : Fin cfg0.N) (p : Fin 512) (q : Fin 4096)
    (xl : Vec Ideal S512x256 .bf16) (xr : Vec Ideal S4096x256 .bf16) (hl : xl = iblk0 V c 0 t) (hr : xr = iblk0 V c 2 t) :
    ∑ j : Fin 256, xl (ix2 p j) * xr (ix2 q j)
      = blockDot (V c main_v9) (V c main_v2) (512 * (t.val / 16) + p.val) q.val (t.val % 16) := by
  subst hl hr
  unfold blockDot
  exact Finset.sum_congr rfl fun j _ => congrArg₂ (· * ·) (iblk0_0_at V c t p j) (iblk0_2_at V c t q j)

/-- The same for the hidden block and the hidden-weight block. -/
theorem dot0_hid (c : Dev nD) (t : Fin cfg0.N) (p : Fin 512) (q : Fin 4096)
    (xl : Vec Ideal S512x256 .bf16) (xr : Vec Ideal S4096x256 .bf16) (hl : xl = iblk0 V c 1 t) (hr : xr = iblk0 V c 3 t) :
    ∑ j : Fin 256, xl (ix2 p j) * xr (ix2 q j)
      = blockDot (V c main_v10) (V c main_v5) (512 * (t.val / 16) + p.val) q.val (t.val % 16) := by
  subst hl hr
  unfold blockDot
  exact Finset.sum_congr rfl fun j _ => congrArg₂ (· * ·) (iblk0_1_at V c t p j) (iblk0_3_at V c t q j)

/-! ## Second kernel -/

theorem iblk1_0_at (c : Dev nD) (t : Fin cfg1.N) (p : Fin 512) (j : Fin 256) :
    (iblk1 V c 0 t : Vec Ideal S512x256 .f32) (ix2 p j)
      = at2 (V c main_v11 : Big.Idx → EReal) (512 * (t.val / 16) + p.val) (256 * (t.val % 16) + j.val) := by
  have hN : cfg1.N = 256 := N_1
  have ht := t.isLt
  have hp := p.isLt
  have hj := j.isLt
  rw [at2_of_lt _ _ _ (by omega) (by omega)]
  unfold iblk1
  rw [View.read_apply]
  show V c main_v11 _ = V c main_v11 _
  refine congrArg _ (funext fun a => Fin.ext ?_)
  match a with
  | ⟨0, _⟩ => show win1_0.index t 0 * 512 + 1 * p.val = 512 * (t.val / 16) + p.val; rw [(idx1_0 t).1]; omega
  | ⟨1, _⟩ => show win1_0.index t 1 * 256 + 1 * j.val = 256 * (t.val % 16) + j.val; rw [(idx1_0 t).2]; omega

theorem iblk1_1_at (c : Dev nD) (t : Fin cfg1.N) (q : Fin 4096) (j : Fin 256) :
    (iblk1 V c 1 t : Vec Ideal S4096x256 .bf16) (ix2 q j)
      = at2 (V c main_v8 : Sq.Idx → EReal) q.val (256 * (t.val % 16) + j.val) := by
  have hN : cfg1.N = 256 := N_1
  have ht := t.isLt
  have hq := q.isLt
  have hj := j.isLt
  rw [at2_of_lt _ _ _ (by omega) (by omega)]
  unfold iblk1
  rw [View.read_apply]
  show V c main_v8 _ = V c main_v8 _
  refine congrArg _ (funext fun a => Fin.ext ?_)
  match a with
  | ⟨0, _⟩ => show win1_1.index t 0 * 4096 + 1 * q.val = q.val; rw [(idx1_1 t).1]; omega
  | ⟨1, _⟩ => show win1_1.index t 1 * 256 + 1 * j.val = 256 * (t.val % 16) + j.val; rw [(idx1_1 t).2]; omega

/-- The partial product of the new-hidden block with the output-weight block at a point. -/
theorem dot1 (c : Dev nD) (t : Fin cfg1.N) (p : Fin 512) (q : Fin 4096)
    (xl : Vec Ideal S512x256 .f32) (xr : Vec Ideal S4096x256 .bf16) (hl : xl = iblk1 V c 0 t) (hr : xr = iblk1 V c 1 t) :
    ∑ j : Fin 256, xl (ix2 p j) * xr (ix2 q j)
      = blockDot (V c main_v11) (V c main_v8) (512 * (t.val / 16) + p.val) q.val (t.val % 16) := by
  subst hl hr
  unfold blockDot
  exact Finset.sum_congr rfl fun j _ => congrArg₂ (· * ·) (iblk1_0_at V c t p j) (iblk1_1_at V c t q j)

end Cert.KernelIdeal.BlockReads

end
-- ==== Proof.Accum.lean ====
/-
  What each output block holds after every grid point, entry by entry.

  Point n of a grid is (row block n / 16, contraction group n % 16).  By induction on n, the entry (p, q) of the first
  kernel's output block after point n is the running sum of the partial products of groups 0 .. n % 16 at row
  512 (n / 16) + p and column q — rounded and clamped once the last group (15) has been added.  The second kernel's
  block holds the plain running sum of its one product.
-/
import proofs.«108138_j15015205666917_2_alg».proof.Proof.Pieces
import proofs.«108138_j15015205666917_2_alg».proof.Proof.Payload
import proofs.«108138_j15015205666917_2_alg».proof.Proof.BlockReads

noncomputable section

open Idealize.ShloMosaic Idealize.ShloMosaic.TcCoe Idealize.SL.Sem Idealize.ShloMosaic.ValueIdx

namespace Cert.KernelIdeal.Accum

open Cert.KernelIdeal Cert.KernelIdeal.Gen Cert.Spec Cert.KernelIdeal.BlockReads

variable (V : (c : Dev nD) → (b : Ref sig .tc) → Buf (Elt Ideal) ((c : Thread nD τ).loc b))

theorem stage_of_ne {k : ℕ} (h : k ≠ 15) (v : EReal) : stage k v = v := if_neg h
theorem stage_last (v : EReal) : stage 15 v = tern v := if_pos rfl

/-- The first kernel's running sum at a point, over the arrays the region finds. -/
abbrev acc0 (c : Dev nD) (n : ℕ) (p : Fin 512) (q : Fin 4096) : EReal :=
  run0 (V c main_v9) (V c main_v10) (V c main_v2) (V c main_v5) (512 * (n / 16) + p.val) q.val (n % 16)

/-- After the two accumulating stores of point t: what the block held, plus the two partial products of t's group. -/
theorem two_adds (c : Dev nD) (t : Fin cfg0.N) (xo : Vec Ideal S512x4096 .f32) (p : Fin 512) (q : Fin 4096) :
    k0_pay3 (iblk0 V c 1 t) (iblk0 V c 3 t) (k0_pay2 (iblk0 V c 0 t) (iblk0 V c 2 t) xo) (ix2 p q)
      = (xo (ix2 p q) + blockDot (V c main_v9) (V c main_v2) (512 * (t.val / 16) + p.val) q.val (t.val % 16))
        + blockDot (V c main_v10) (V c main_v5) (512 * (t.val / 16) + p.val) q.val (t.val % 16) := by
  refine (Payload.pay0_3_apply (iblk0 V c 1 t) (iblk0 V c 3 t) (k0_pay2 (iblk0 V c 0 t) (iblk0 V c 2 t) xo) p q).trans ?_
  refine congrArg₂ (· + ·) ?_ (dot0_hid V c t p q (iblk0 V c 1 t) (iblk0 V c 3 t) rfl rfl)
  refine (Payload.pay0_2_apply (iblk0 V c 0 t) (iblk0 V c 2 t) xo p q).trans ?_
  exact congrArg (xo (ix2 p q) + ·) (dot0_in V c t p q (iblk0 V c 0 t) (iblk0 V c 2 t) rfl rfl)

theorem outsAt0_eq (c : Dev nD) : ∀ (n : ℕ) (hn : n < cfg0.N) (p : Fin 512) (q : Fin 4096),
    outsAt0 V c n hn (ix2 p q) = stage (n % 16) (acc0 V c n p q)
  | 0, hn, p, q => by
    rw [outsAt0_A V c ⟨0, hn⟩ rfl (by show ¬(0 % 16 = 15); decide), Pieces.out0_A]
    refine (two_adds V c ⟨0, hn⟩ (k0_pay1 (F := Ideal)) p q).trans ?_
    rw [Payload.pay0_1_apply]
    exact (stage_of_ne (by decide) _).symm
  | n + 1, hn, p, q => by
    have hN : cfg0.N = 256 := N_0
    by_cases h0 : (n + 1) % 16 = 0
    · have h1 : ¬(n + 1) % 16 = 15 := by omega
      rw [outsAt0_A V c ⟨n + 1, hn⟩ h0 h1, Pieces.out0_A]
      refine (two_adds V c ⟨n + 1, hn⟩ (k0_pay1 (F := Ideal)) p q).trans ?_
      rw [Payload.pay0_1_apply]
      show _ = stage ((n + 1) % 16) (run0 _ _ _ _ (512 * ((n + 1) / 16) + p.val) q.val ((n + 1) % 16))
      rw [h0]
      exact (stage_of_ne (by decide) _).symm
    · have e1 : (n + 1) % 16 = n % 16 + 1 := by omega
      have e2 : (n + 1) / 16 = n / 16 := by omega
      have ih := outsAt0_eq c n (Nat.lt_of_succ_lt hn) p q
      rw [stage_of_ne (by omega)] at ih
      by_cases h1 : (n + 1) % 16 = 15
      · rw [outsAt0_C V c ⟨n + 1, hn⟩ h0 h1, Pieces.out0_C, Payload.pay0_4_apply]
        refine (congrArg tern (two_adds V c ⟨n + 1, hn⟩ (outsAt0 V c n (Nat.lt_of_succ_lt hn)) p q)).trans ?_
        rw [ih]
        show tern ((run0 _ _ _ _ (512 * (n / 16) + p.val) q.val (n % 16) + blockDot _ _ (512 * ((n + 1) / 16) + p.val) q.val ((n + 1) % 16)) + blockDot _ _ (512 * ((n + 1) / 16) + p.val) q.val ((n + 1) % 16))
          = stage ((n + 1) % 16) (run0 _ _ _ _ (512 * ((n + 1) / 16) + p.val) q.val ((n + 1) % 16))
        rw [h1, stage_last, e2]
        have e3 : n % 16 = 14 := by omega
        rw [e3]
        rfl
      · rw [outsAt0_B V c ⟨n + 1, hn⟩ h0 h1, Pieces.out0_B]
        refine (two_adds V c ⟨n + 1, hn⟩ (outsAt0 V c n (Nat.lt_of_succ_lt hn)) p q).trans ?_
        rw [ih]
        show (run0 _ _ _ _ (512 * (n / 16) + p.val) q.val (n % 16) + blockDot _ _ (512 * ((n + 1) / 16) + p.val) q.val ((n + 1) % 16)) + blockDot _ _ (512 * ((n + 1) / 16) + p.val) q.val ((n + 1) % 16)
          = stage ((n + 1) % 16) (run0 _ _ _ _ (512 * ((n + 1) / 16) + p.val) q.val ((n + 1) % 16))
        rw [stage_of_ne h1, e1, e2]
        rfl

/-- The same at a general entry of the block. -/
theorem outsAt0_at (c : Dev nD) (n : ℕ) (hn : n < cfg0.N) (y : S512x4096.Idx) :
    outsAt0 V c n hn y = stage (n % 16) (acc0 V c n (y 0) (y 1)) := by
  exact (congrArg (outsAt0 V c n hn) (eq_ix2 y)).trans (outsAt0_eq V c n hn (y 0) (y 1))

/-! ## Second kernel -/

abbrev acc1 (c : Dev nD) (n : ℕ) (p : Fin 512) (q : Fin 4096) : EReal :=
  run1 (V c main_v11) (V c main_v8) (512 * (n / 16) + p.val) q.val (n % 16)

theorem one_add (c : Dev nD) (t : Fin cfg1.N) (xo : Vec Ideal S512x4096 .f32) (p : Fin 512) (q : Fin 4096) :
    k1_pay2 (iblk1 V c 0 t) (iblk1 V c 1 t) xo (ix2 p q)
      = xo (ix2 p q) + blockDot (V c main_v11) (V c main_v8) (512 * (t.val / 16) + p.val) q.val (t.val % 16) := by
  refine (Payload.pay1_2_apply (iblk1 V c 0 t) (iblk1 V c 1 t) xo p q).trans ?_
  exact congrArg (xo (ix2 p q) + ·) (dot1 V c t p q (iblk1 V c 0 t) (iblk1 V c 1 t) rfl rfl)

theorem outsAt1_eq (c : Dev nD) : ∀ (n : ℕ) (hn : n < cfg1.N) (p : Fin 512) (q : Fin 4096),
    outsAt1 V c n hn (ix2 p q) = acc1 V c n p q
  | 0, hn, p, q => by
    rw [outsAt1_A V c ⟨0, hn⟩ rfl, Pieces.out1_A]
    refine (one_add V c ⟨0, hn⟩ (k1_pay1 (F := Ideal)) p q).trans ?_
    rw [Payload.pay1_1_apply]
    rfl
  | n + 1, hn, p, q => by
    have hN : cfg1.N = 256 := N_1
    by_cases h0 : (n + 1) % 16 = 0
    · rw [outsAt1_A V c ⟨n + 1, hn⟩ h0, Pieces.out1_A]
      refine (one_add V c ⟨n + 1, hn⟩ (k1_pay1 (F := Ideal)) p q).trans ?_
      rw [Payload.pay1_1_apply]
      show _ = run1 _ _ (512 * ((n + 1) / 16) + p.val) q.val ((n + 1) % 16)
      rw [h0]
      rfl
    · have e1 : (n + 1) % 16 = n % 16 + 1 := by omega
      have e2 : (n + 1) / 16 = n / 16 := by omega
      rw [outsAt1_B V c ⟨n + 1, hn⟩ h0, Pieces.out1_B]
      refine (one_add V c ⟨n + 1, hn⟩ (outsAt1 V c n (Nat.lt_of_succ_lt hn)) p q).trans ?_
      rw [outsAt1_eq c n (Nat.lt_of_succ_lt hn) p q]
      show run1 _ _ (512 * (n / 16) + p.val) q.val (n % 16) + blockDot _ _ (512 * ((n + 1) / 16) + p.val) q.val ((n + 1) % 16)
        = run1 _ _ (512 * ((n + 1) / 16) + p.val) q.val ((n + 1) % 16)
      rw [e1, e2]
      rfl

theorem outsAt1_at (c : Dev nD) (n : ℕ) (hn : n < cfg1.N) (y : S512x4096.Idx) :
    outsAt1 V c n hn y = acc1 V c n (y 0) (y 1) := by
  exact (congrArg (outsAt1 V c n hn) (eq_ix2 y)).trans (outsAt1_eq V c n hn (y 0) (y 1))

end Cert.KernelIdeal.Accum

end
-- ==== Proof.Final.lean ====
/-
  The arrays the two regions leave, as whole-array functions of the arrays they find.

  Each output array is written back once per row block, after the block's last contraction group (the points n with
  n % 16 = 15); the sixteen row blocks of 512 rows tile the 8192 rows.  So the first region leaves, at (r, q), the
  rounded and clamped whole running sum, and the second region the whole running sum of its product.
-/
import proofs.«108138_j15015205666917_2_alg».proof.Proof.Accum
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Spec Cert.KernelIdeal.BlockReads Cert.KernelIdeal.Accum

variable (V : (c : Dev nD) → (b : Ref sig .tc) → Buf (Elt Ideal) ((c : Thread nD τ).loc b))

/-! ## First region -/

/-- What the first region leaves in the new-hidden array. -/
def G0 (c : Dev nD) : S8192x4096.Idx → EReal :=
  fun i => tern (run0 (V c main_v9) (V c main_v10) (V c main_v2) (V c main_v5) (i 0).val (i 1).val 15)

theorem flushed0 (c : Dev nD) (t : Fin cfg0.N) (hf : (cfg0.win 4).flush t = true) :
    (dat0 V c).flushed 4 t = ((cfg0.win 4).blk t).view.read (Elt Ideal) (G0 V c) := by
  have h15 : t.val % 16 = 15 := (flush0_4 t).mp hf
  show (cfg0.win 4).cut (grid0.coords t) ((dat0 V c).after 4 t) = _
  rw [after0_4]
  funext y
  show outsAt0 V c t.val t.isLt y = G0 V c (((cfg0.win 4).blk t).view.emb y)
  refine (outsAt0_at V c t.val t.isLt y).trans ?_
  show stage (t.val % 16) (run0 (V c main_v9) (V c main_v10) (V c main_v2) (V c main_v5) (512 * (t.val / 16) + (y 0).val) (y 1).val (t.val % 16))
    = G0 V c (((cfg0.win 4).blk t).view.emb y)
  rw [h15, stage_last]
  have e0 : ((((cfg0.win 4).blk t).view.emb y) 0).val = 512 * (t.val / 16) + (y 0).val := by
    show win0_4.index t 0 * 512 + 1 * (y 0).val = _; rw [(idx0_4 t).1]; omega
  have e1 : ((((cfg0.win 4).blk t).view.emb y) 1).val = (y 1).val := by
    show win0_4.index t 1 * 4096 + 1 * (y 1).val = _; rw [(idx0_4 t).2]; omega
  unfold G0
  rw [e0, e1]

theorem mem_blk0 (t : Fin cfg0.N) (i : S8192x4096.Idx) :
    i ∈ ((cfg0.win 4).blk t).view.set ↔ ∀ a : Fin 2, win0_4.index t a * S512x4096.size a ≤ (i a).val ∧ (i a).val < win0_4.index t a * S512x4096.size a + S512x4096.size a := by
  show i ∈ ((View.whole main_v11).slice (win0_4.rect t)).set ↔ _
  rw [View.set_slice_whole, Rect.mem_set_unit]
  exact Iff.rfl

theorem cover0 (i : S8192x4096.Idx) : ∃ t : Fin cfg0.N, (cfg0.win 4).flush t = true ∧ i ∈ ((cfg0.win 4).blk t).view.set := by
  have hN : cfg0.N = 256 := N_0
  have hi0 : (i 0).val < 8192 := (i 0).isLt
  have hi1 : (i 1).val < 4096 := (i 1).isLt
  refine ⟨⟨16 * ((i 0).val / 512) + 15, by omega⟩, (flush0_4 _).mpr (by show (16 * ((i 0).val / 512) + 15) % 16 = 15; omega), ?_⟩
  rw [mem_blk0]
  intro a
  match a with
  | ⟨0, _⟩ =>
    show win0_4.index _ 0 * 512 ≤ (i 0).val ∧ (i 0).val < win0_4.index _ 0 * 512 + 512
    rw [(idx0_4 _).1]; show (16 * ((i 0).val / 512) + 15) / 16 * 512 ≤ (i 0).val ∧ (i 0).val < (16 * ((i 0).val / 512) + 15) / 16 * 512 + 512; omega
  | ⟨1, _⟩ =>
    show win0_4.index _ 1 * 4096 ≤ (i 1).val ∧ (i 1).val < win0_4.index _ 1 * 4096 + 4096
    rw [(idx0_4 _).2]; omega

/-- The new-hidden array after the first region. -/
theorem final0 (c : Dev nD) : (dat0 V c).arrAt 4 cfg0.N = G0 V c :=
  (dat0 V c).arrAt_eq_of_cover 4 (G0 V c) (flushed0 V c) (cover0)

/-! ## Second region -/

/-- What the second region leaves in the output array. -/
def G1 (c : Dev nD) : S8192x4096.Idx → EReal :=
  fun i => run1 (V c main_v11) (V c main_v8) (i 0).val (i 1).val 15

theorem flushed1 (c : Dev nD) (t : Fin cfg1.N) (hf : (cfg1.win 2).flush t = true) :
    (dat1 V c).flushed 2 t = ((cfg1.win 2).blk t).view.read (Elt Ideal) (G1 V c) := by
  have h15 : t.val % 16 = 15 := (flush1_2 t).mp hf
  show (cfg1.win 2).cut (grid1.coords t) ((dat1 V c).after 2 t) = _
  rw [after1_2]
  funext y
  show outsAt1 V c t.val t.isLt y = G1 V c (((cfg1.win 2).blk t).view.emb y)
  refine (outsAt1_at V c t.val t.isLt y).trans ?_
  show run1 (V c main_v11) (V c main_v8) (512 * (t.val / 16) + (y 0).val) (y 1).val (t.val % 16)
    = G1 V c (((cfg1.win 2).blk t).view.emb y)
  rw [h15]
  have e0 : ((((cfg1.win 2).blk t).view.emb y) 0).val = 512 * (t.val / 16) + (y 0).val := by
    show win1_2.index t 0 * 512 + 1 * (y 0).val = _; rw [(idx1_2 t).1]; omega
  have e1 : ((((cfg1.win 2).blk t).view.emb y) 1).val = (y 1).val := by
    show win1_2.index t 1 * 4096 + 1 * (y 1).val = _; rw [(idx1_2 t).2]; omega
  unfold G1
  rw [e0, e1]

theorem mem_blk1 (t : Fin cfg1.N) (i : S8192x4096.Idx) :
    i ∈ ((cfg1.win 2).blk t).view.set ↔ ∀ a : Fin 2, win1_2.index t a * S512x4096.size a ≤ (i a).val ∧ (i a).val < win1_2.index t a * S512x4096.size a + S512x4096.size a := by
  show i ∈ ((View.whole main_v12).slice (win1_2.rect t)).set ↔ _
  rw [View.set_slice_whole, Rect.mem_set_unit]
  exact Iff.rfl

theorem cover1 (i : S8192x4096.Idx) : ∃ t : Fin cfg1.N, (cfg1.win 2).flush t = true ∧ i ∈ ((cfg1.win 2).blk t).view.set := by
  have hN : cfg1.N = 256 := N_1
  have hi0 : (i 0).val < 8192 := (i 0).isLt
  have hi1 : (i 1).val < 4096 := (i 1).isLt
  refine ⟨⟨16 * ((i 0).val / 512) + 15, by omega⟩, (flush1_2 _).mpr (by show (16 * ((i 0).val / 512) + 15) % 16 = 15; omega), ?_⟩
  rw [mem_blk1]
  intro a
  match a with
  | ⟨0, _⟩ =>
    show win1_2.index _ 0 * 512 ≤ (i 0).val ∧ (i 0).val < win1_2.index _ 0 * 512 + 512
    rw [(idx1_2 _).1]; show (16 * ((i 0).val / 512) + 15) / 16 * 512 ≤ (i 0).val ∧ (i 0).val < (16 * ((i 0).val / 512) + 15) / 16 * 512 + 512; omega
  | ⟨1, _⟩ =>
    show win1_2.index _ 1 * 4096 ≤ (i 1).val ∧ (i 1).val < win1_2.index _ 1 * 4096 + 4096
    rw [(idx1_2 _).2]; omega

/-- The output array after the second region. -/
theorem final1 (c : Dev nD) : (dat1 V c).arrAt 2 cfg1.N = G1 V c :=
  (dat1 V c).arrAt_eq_of_cover 2 (G1 V c) (flushed1 V c) (cover1)

end Cert.KernelIdeal.Final

end
-- ==== Proof.HostVals.lean ====
/-
  What the host operations before the two kernel regions leave in the buffers the regions read.

  Before its first region the program, for each weight matrix w, rounds every entry to the nearest integer (ties to
  even), takes the maximum with the constant -1 broadcast to the matrix's shape, then the minimum with the constant 1
  broadcast likewise, and changes the format of the result; and it changes the format of the two activations x and h.
  On extended reals a format change is the identity, a broadcast scalar read at any index is the scalar, and maximum
  and minimum act entry by entry.  So at the first region's entry the two converted activations hold the arguments
  themselves, and each converted weight matrix holds, at every index j, the ternary quantization
  min 1 (max (-1) (round-half-even (w j))) of the argument's entry.  The third weight matrix is not among the first
  region's arrays, so it still holds the same at the first region's exit, which is the second region's entry.

  Each statement is an equality of functions of the index.  The contents at a boundary are a fold of the host
  operations, in order, from the launch memory; reading the fold at one buffer replaces each operation by its
  function at its own result buffer and by nothing at any other, which leaves the composition of the functions
  applied to the launch contents of the argument; that composition at an index is the right-hand side by unfolding
  the definitions.
-/
import proofs.«108138_j15015205666917_2_alg».proof.Proof.Gen.KernelIdeal.Frame
import Idealize.ShloMosaic.Lib.StableHlo.Run
import proofs.«108138_j15015205666917_2_alg».proof.Proof.Spec

noncomputable section

namespace Cert.KernelIdeal.HostVals

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD)

/-- At the first region's entry the converted x holds the argument x: a format change is the identity. -/
theorem v9_eq : (V12 m ρ c main_v9 : S8192x4096.Idx → EReal) = m ((c : Thread nD τ).loc main_arg0) := by
  show StableHlo.after hostOps0_11 (W11 m ρ c) (Proc.devRef .tc main_v9) = _
  after_results
  rfl

/-- At the first region's entry the converted h holds the argument h. -/
theorem v10_eq : (V12 m ρ c main_v10 : S8192x4096.Idx → EReal) = m ((c : Thread nD τ).loc main_arg1) := by
  show StableHlo.after hostOps0_11 (W11 m ρ c) (Proc.devRef .tc main_v10) = _
  after_results
  rfl

/-- At the first region's entry the first converted weight matrix holds the ternary quantization of the argument
    wi, entry by entry: round to nearest even, maximum with -1, minimum with 1, format change. -/
theorem v2_eq : (V12 m ρ c main_v2 : S4096x4096.Idx → EReal)
    = fun j => Cert.Spec.tern (m ((c : Thread nD τ).loc main_arg2) j) := by
  show StableHlo.after hostOps0_11 (W11 m ρ c) (Proc.devRef .tc main_v2) = _
  after_results
  funext j
  rfl

/-- The same for the second weight matrix wh. -/
theorem v5_eq : (V12 m ρ c main_v5 : S4096x4096.Idx → EReal)
    = fun j => Cert.Spec.tern (m ((c : Thread nD τ).loc main_arg3) j) := by
  show StableHlo.after hostOps0_11 (W11 m ρ c) (Proc.devRef .tc main_v5) = _
  after_results
  funext j
  rfl

/-- The third weight matrix wo at the first region's exit: it is none of that region's arrays, so it holds what it
    held at the region's entry, the ternary quantization of the argument wo. -/
theorem v8_eq : (V13 m ρ c main_v8 : S4096x4096.Idx → EReal)
    = fun j => Cert.Spec.tern (m ((c : Thread nD τ).loc main_arg4) j) := by
  show W13 m ρ c (Proc.devRef .tc main_v8) = _
  rw [W13_of_ne m ρ c main_v8 (by decide)]
  show StableHlo.after hostOps0_11 (W11 m ρ c) (Proc.devRef .tc main_v8) = _
  after_results
  funext j
  rfl

end Cert.KernelIdeal.HostVals

end
-- ==== Proof.KValue.lean ====
/-
  The idealized kernel program's two results, as the specification's functions of its five arguments.

  The first region finds x and hidden unchanged (narrowing to bf16 is the identity on extended reals) and the input and
  hidden weights already quantized, and leaves the quantized sum of the two whole products: the new hidden state.
  The second region finds that array and the quantized output weights, and leaves their whole product: the output.
  The second region reads the new hidden state through an input window, so it ends as the first region left it.
-/
import proofs.«108138_j15015205666917_2_alg».proof.Proof.RunValue
import proofs.«108138_j15015205666917_2_alg».proof.Proof.Final
import proofs.«108138_j15015205666917_2_alg».proof.Proof.HostVals

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Spec

variable (m : (ℓ : Loc nD τ sig) → Buf (Elt Ideal) ℓ) (ρ : Dev nD → PrngReg)

/-- The new hidden state as the specification states it, of the launch contents of the arguments. -/
abbrev specH (c : Dev nD) : S8192x4096.Idx → EReal :=
  hnew (m ((c : Thread nD τ).loc main_arg0)) (m ((c : Thread nD τ).loc main_arg1))
    (m ((c : Thread nD τ).loc main_arg2)) (m ((c : Thread nD τ).loc main_arg3))

/-- The output as the specification states it. -/
abbrev specO (c : Dev nD) : S8192x4096.Idx → EReal :=
  outp (m ((c : Thread nD τ).loc main_arg0)) (m ((c : Thread nD τ).loc main_arg1))
    (m ((c : Thread nD τ).loc main_arg2)) (m ((c : Thread nD τ).loc main_arg3)) (m ((c : Thread nD τ).loc main_arg4))

/-- What the first region leaves in the new-hidden array is the specification's new hidden state. -/
theorem G0_eq (c : Dev nD) : Final.G0 (V12 m ρ) c = specH m c := by
  funext i
  unfold Final.G0
  rw [HostVals.v9_eq m ρ c, HostVals.v10_eq m ρ c, HostVals.v2_eq m ρ c, HostVals.v5_eq m ρ c]
  rw [run0_last _ _ _ _ (i 0) (i 1)]
  rfl

/-- The new-hidden array at the second region's entry. -/
theorem v11_entry (c : Dev nD) : (V13 m ρ c main_v11 : S8192x4096.Idx → EReal) = specH m c := by
  show W13 m ρ c (Proc.devRef .tc main_v11) = _
  rw [show W13 m ρ c (Proc.devRef .tc main_v11) = (dat0 (V12 m ρ) c).arrAt 4 cfg0.N from W13_arr m ρ c 4,
    Final.final0, G0_eq]

/-- The new-hidden array at the end. -/
theorem hidden_end (c : Dev nD) : (W14 m ρ c (Proc.devRef .tc main_v11) : S8192x4096.Idx → EReal) = specH m c := by
  rw [show W14 m ρ c (Proc.devRef .tc main_v11) = (dat1 (V13 m ρ) c).arrAt 0 cfg1.N from W14_arr m ρ c 0,
    (dat1 (V13 m ρ) c).arrAt_in 0 rfl _, A_eq1]
  exact v11_entry m ρ c

/-- The output array at the end. -/
theorem output_end (c : Dev nD) : (W14 m ρ c (Proc.devRef .tc main_v12) : S8192x4096.Idx → EReal) = specO m c := by
  rw [show W14 m ρ c (Proc.devRef .tc main_v12) = (dat1 (V13 m ρ) c).arrAt 2 cfg1.N from W14_arr m ρ c 2, Final.final1]
  funext i
  unfold Final.G1
  rw [v11_entry m ρ c, HostVals.v8_eq m ρ c, run1_last _ _ (i 0) (i 1)]
  rfl

/-- Every weakly fair execution of the idealized kernel program terminates with the output and the new hidden state
    at the specification's values and the arguments unchanged. -/
theorem run : θ_run defs (onTc (τ := τ) (main (F := Ideal))) ⟨m, fun _ => 0, ρ⟩ (fun r => ∀ c : Dev nD,
      r.2.mem ((c.tc : Thread nD τ).loc main_v12) = specO m c
      ∧ r.2.mem ((c.tc : Thread nD τ).loc main_v11) = specH m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (output_end m ρ c), (h c).2.1.trans (hidden_end m ρ c), (h c).2.2⟩)
    (RunValue.run_results m ρ)

end Cert.KernelIdeal.KValue

end
-- ==== Proof.RefSpec.lean ====
/-
  The reference program computes the specification.

  The reference writes the quantization of a real number w as w + (q - w) with q = min 1 (max (-1) (round-half-even w)).
  For a real w this is q itself.  The three weight matrices are real by hypothesis; the pre-activation is a sum of
  products of real numbers, so it is real too.  Hence every "w + (q - w)" in the reference is the plain quantization,
  the two first products add up to the pre-activation of the specification, the new hidden state is its quantization,
  and the output is the product of the new hidden state with the quantized output weights, transposed.
-/
import proofs.«108138_j15015205666917_2_alg».proof.Proof.Gen.ReferenceIdeal.Read
import proofs.«108138_j15015205666917_2_alg».proof.Proof.Spec

noncomputable section

namespace Cert.RefSpec

open Cert.ReferenceIdeal Cert.ReferenceIdeal.Gen Cert.ReferenceIdeal.Read Idealize.ShloMosaic Idealize.ShloMosaic.ValueIdx
open Cert.Spec

/-- The clipped rounding of the first weight matrix, at an index. -/
theorem v1_apply (x2 : Sq.Idx → EReal) (j : Sq.Idx) : val_main_v1 (F := Ideal) x2 j = tern (x2 j) := by
  rw [val_main_v1_apply, val_main_call1_v4_apply, val_main_call1_v3_apply, val_main_cst_0_apply,
    val_main_call1_v2_apply, val_main_call1_v1_apply, val_main_call1_v0_apply, val_main_cst_apply, val_main_v0_apply]
  simp only [Ideal.minimumf_def, Ideal.maximumf_def, Ideal.ofBits_def, Ideal.hostUnary_roundeven_def]
  rfl

/-- For a real weight, w + (q - w) is the quantized weight q. -/
theorem v3_apply (x2 : Sq.Idx → EReal) (j : Sq.Idx) (h : IsR (x2 j)) : val_main_v3 (F := Ideal) x2 j = tern (x2 j) := by
  rw [val_main_v3_apply, val_main_v2_apply, v1_apply]
  simp only [Ideal.addf_def, Ideal.subf_def]
  exact add_sub_cancel_isR _ h

/-- The clipped rounding of the second weight matrix, at an index. -/
theorem v7_apply (x3 : Sq.Idx → EReal) (j : Sq.Idx) : val_main_v7 (F := Ideal) x3 j = tern (x3 j) := by
  rw [val_main_v7_apply, val_main_call3_v4_apply, val_main_call3_v3_apply, val_main_cst_2_apply,
    val_main_call3_v2_apply, val_main_call3_v1_apply, val_main_call3_v0_apply, val_main_cst_1_apply, val_main_v6_apply]
  simp only [Ideal.minimumf_def, Ideal.maximumf_def, Ideal.ofBits_def, Ideal.hostUnary_roundeven_def]
  rfl

theorem v9_apply (x3 : Sq.Idx → EReal) (j : Sq.Idx) (h : IsR (x3 j)) : val_main_v9 (F := Ideal) x3 j = tern (x3 j) := by
  rw [val_main_v9_apply, val_main_v8_apply, v7_apply]
  simp only [Ideal.addf_def, Ideal.subf_def]
  exact add_sub_cancel_isR _ h

/-- The clipped rounding of the third weight matrix, at an index. -/
theorem v18_apply (x4 : Sq.Idx → EReal) (j : Sq.Idx) : val_main_v18 (F := Ideal) x4 j = tern (x4 j) := by
  rw [val_main_v18_apply, val_main_call7_v4_apply, val_main_call7_v3_apply, val_main_cst_6_apply,
    val_main_call7_v2_apply, val_main_call7_v1_apply, val_main_call7_v0_apply, val_main_cst_5_apply, val_main_v17_apply]
  simp only [Ideal.minimumf_def, Ideal.maximumf_def, Ideal.ofBits_def, Ideal.hostUnary_roundeven_def]
  rfl

theorem v20_apply (x4 : Sq.Idx → EReal) (j : Sq.Idx) (h : IsR (x4 j)) : val_main_v20 (F := Ideal) x4 j = tern (x4 j) := by
  rw [val_main_v20_apply, val_main_v19_apply, v18_apply]
  simp only [Ideal.addf_def, Ideal.subf_def]
  exact add_sub_cancel_isR _ h

/-- The first product: row r of x against row c of the quantized input weights. -/
theorem v5_apply (x0 : Big.Idx → EReal) (x2 : Sq.Idx → EReal) (h2 : ∀ i, IsR (x2 i)) (r : Fin 8192) (c : Fin 4096) :
    val_main_v5 (F := Ideal) x0 x2 (ix2 r c) = ∑ k : Fin 4096, x0 (ix2 r k) * tern (x2 (ix2 c k)) := by
  rw [val_main_v5_apply]
  refine Finset.sum_congr rfl fun k _ => ?_
  have e1 : lidx_main_v5 (ix2 r c) k = ix2 r k :=
    funext fun a => Fin.ext (by match a with | ⟨0, _⟩ => rfl | ⟨1, _⟩ => rfl)
  have e2 : idx_main_v4 (ridx_main_v5 (ix2 r c) k) = ix2 c k :=
    funext fun a => Fin.ext (by match a with | ⟨0, _⟩ => rfl | ⟨1, _⟩ => rfl)
  rw [val_main_v4_apply, e1, e2, v3_apply _ _ (h2 _)]

/-- The second product: row r of the hidden state against row c of the quantized recurrent weights. -/
theorem v11_apply (x1 : Big.Idx → EReal) (x3 : Sq.Idx → EReal) (h3 : ∀ i, IsR (x3 i)) (r : Fin 8192) (c : Fin 4096) :
    val_main_v11 (F := Ideal) x1 x3 (ix2 r c) = ∑ k : Fin 4096, x1 (ix2 r k) * tern (x3 (ix2 c k)) := by
  rw [val_main_v11_apply]
  refine Finset.sum_congr rfl fun k _ => ?_
  have e1 : lidx_main_v11 (ix2 r c) k = ix2 r k :=
    funext fun a => Fin.ext (by match a with | ⟨0, _⟩ => rfl | ⟨1, _⟩ => rfl)
  have e2 : idx_main_v10 (ridx_main_v11 (ix2 r c) k) = ix2 c k :=
    funext fun a => Fin.ext (by match a with | ⟨0, _⟩ => rfl | ⟨1, _⟩ => rfl)
  rw [val_main_v10_apply, e1, e2, v9_apply _ _ (h3 _)]

/-- The sum of the two products is the pre-activation. -/
theorem v12_apply (x0 x1 : Big.Idx → EReal) (x2 x3 : Sq.Idx → EReal) (h2 : ∀ i, IsR (x2 i)) (h3 : ∀ i, IsR (x3 i))
    (r : Fin 8192) (c : Fin 4096) : val_main_v12 (F := Ideal) x0 x1 x2 x3 (ix2 r c) = pre x0 x1 x2 x3 r c := by
  rw [val_main_v12_apply, v5_apply _ _ h2, v11_apply _ _ h3]
  rfl

/-- The clipped rounding of the pre-activation, at an index. -/
theorem v14_apply (x0 x1 : Big.Idx → EReal) (x2 x3 : Sq.Idx → EReal) (i : Big.Idx) :
    val_main_v14 (F := Ideal) x0 x1 x2 x3 i = tern (val_main_v12 (F := Ideal) x0 x1 x2 x3 i) := by
  rw [val_main_v14_apply, val_main_call5_v4_apply, val_main_call5_v3_apply, val_main_cst_4_apply,
    val_main_call5_v2_apply, val_main_call5_v1_apply, val_main_call5_v0_apply, val_main_cst_3_apply, val_main_v13_apply]
  simp only [Ideal.minimumf_def, Ideal.maximumf_def, Ideal.ofBits_def, Ideal.hostUnary_roundeven_def]
  rfl

/-- The reference's new hidden state is the specification's. -/
theorem ref_hnew (x0 x1 : Big.Idx → EReal) (x2 x3 : Sq.Idx → EReal) (h0 : ∀ i, IsR (x0 i)) (h1 : ∀ i, IsR (x1 i))
    (h2 : ∀ i, IsR (x2 i)) (h3 : ∀ i, IsR (x3 i)) :
    val_main_v16 (F := Ideal) x0 x1 x2 x3 = hnew x0 x1 x2 x3 := by
  funext i
  obtain ⟨r, c, rfl⟩ : ∃ (r : Fin 8192) (c : Fin 4096), i = ix2 r c := ⟨i 0, i 1, eq_ix2 i⟩
  rw [val_main_v16_apply, val_main_v15_apply, v14_apply, v12_apply _ _ _ _ h2 h3]
  simp only [Ideal.addf_def, Ideal.subf_def]
  exact add_sub_cancel_isR _ (pre_isR x0 x1 x2 x3 h0 h1 r c)

/-- The reference's output is the specification's. -/
theorem ref_outp (x0 x1 : Big.Idx → EReal) (x2 x3 x4 : Sq.Idx → EReal) (h0 : ∀ i, IsR (x0 i)) (h1 : ∀ i, IsR (x1 i))
    (h2 : ∀ i, IsR (x2 i)) (h3 : ∀ i, IsR (x3 i)) (h4 : ∀ i, IsR (x4 i)) :
    val_main_v22 (F := Ideal) x0 x1 x2 x3 x4 = outp x0 x1 x2 x3 x4 := by
  funext i
  obtain ⟨r, c, rfl⟩ : ∃ (r : Fin 8192) (c : Fin 4096), i = ix2 r c := ⟨i 0, i 1, eq_ix2 i⟩
  rw [val_main_v22_apply, ref_hnew x0 x1 x2 x3 h0 h1 h2 h3]
  refine Finset.sum_congr rfl fun k _ => ?_
  have e1 : lidx_main_v22 (ix2 r c) k = ix2 r k :=
    funext fun a => Fin.ext (by match a with | ⟨0, _⟩ => rfl | ⟨1, _⟩ => rfl)
  have e2 : idx_main_v21 (ridx_main_v22 (ix2 r c) k) = ix2 c k :=
    funext fun a => Fin.ext (by match a with | ⟨0, _⟩ => rfl | ⟨1, _⟩ => rfl)
  rw [val_main_v21_apply, e1, e2, v20_apply _ _ (h4 _)]

end Cert.RefSpec

end
-- ==== Proof.Finite.lean ====
/-
  From the precondition to real inputs.

  The precondition says, of each of the five input arrays, that every entry x satisfies |x| < +inf, where |x| is
  max x (-x) and +inf is the word 0x7F800000; the five statements are joined by "and", each a conjunction over all the
  entries of its array.  An extended real whose absolute value is below +inf is neither -inf nor +inf, so it is a real
  number.
-/
import proofs.«108138_j15015205666917_2_alg».proof.Defs
import proofs.«108138_j15015205666917_2_alg».proof.Proof.Spec
import Idealize.ShloMosaic.Lib.ReduceAll
import Idealize.ShloMosaic.Lib.ValueIdx
import Idealize.ShloMosaic.PureOps.Ideal.Laws

noncomputable section

namespace Cert.Finite

open Idealize.ShloMosaic Idealize.SL.Sem
open Cert.Spec

/-- The word 0x7F800000 is +inf. -/
theorem ofBits_inf : Ideal.ofBits .f32 0x7F800000#32 = (⊤ : EReal) := by
  simp [Ideal.ofBits, Ideal.ieee]

/-- An extended real whose absolute value max x (-x) is below +inf is a real number. -/
theorem isR_of_abs_lt_top (x : EReal) (h : max x (-x) < ⊤) : IsR x := by
  induction x using EReal.rec with
  | bot => exact absurd h (by simp)
  | top => exact absurd h (by simp)
  | coe r => exact ⟨r, rfl⟩

/-- The shape with no axes has one index. -/
instance : Subsingleton Cert.Pre_finite_inputs.S_.Idx := ⟨fun a b => funext fun d => d.elim0⟩

/-- One word of the comparison |x| < +inf, read back: the entry is real. -/
theorem isR_of_cmp {s : Shape} (hb : Cert.Pre_finite_inputs.S_.BroadcastsInDim s (![] : Fin 0 → Fin s.rank))
    (x : FVec Ideal s .f32) (i : s.Idx)
    (h : cmpf .olt (Host.absf x) (broadcastInDim s ![] hb (constant (F := Ideal) Cert.Pre_finite_inputs.S_ .f32 0x7F800000#32)) i = 1#1) :
    IsR (x i) := by
  have h' : Ideal.cmp .olt (max (x i) (-(x i))) (Ideal.ofBits .f32 0x7F800000#32) = 1#1 := h
  rw [ofBits_inf] at h'
  refine isR_of_abs_lt_top _ ?_
  by_contra hn
  simp [Ideal.cmp, hn] at h'

/-- The precondition, decoded: every entry of every input is a real number. -/
theorem fn_real [hP : Cert.Pre_finite_inputs.Facts]
    (a0 a1 : FVec Ideal Cert.Pre_finite_inputs.S8192x4096 .f32) (a2 a3 a4 : FVec Ideal Cert.Pre_finite_inputs.S4096x4096 .f32)
    (h : Cert.Pre_finite_inputs.fn (F := Ideal) a0 a1 a2 a3 a4 = fun _ => 1#1) :
    (∀ i, IsR (a0 i)) ∧ (∀ i, IsR (a1 i)) ∧ (∀ i, IsR (a2 i)) ∧ (∀ i, IsR (a3 i)) ∧ (∀ i, IsR (a4 i)) := by
  have e := congrFun h ValueIdx.ix0
  dsimp only [Cert.Pre_finite_inputs.fn, Cert.Pre_finite_inputs.fn_part1, andi] at e
  simp only [IntOp.andi_eq_one] at e
  obtain ⟨⟨⟨⟨e0, e1⟩, e2⟩, e3⟩, e4⟩ := e
  exact ⟨fun i => isR_of_cmp _ a0 i (Host.reduce_andi_all _ _ _ _ _ e0 i),
    fun i => isR_of_cmp _ a1 i (Host.reduce_andi_all _ _ _ _ _ e1 i),
    fun i => isR_of_cmp _ a2 i (Host.reduce_andi_all _ _ _ _ _ e2 i),
    fun i => isR_of_cmp _ a3 i (Host.reduce_andi_all _ _ _ _ _ e3 i),
    fun i => isR_of_cmp _ a4 i (Host.reduce_andi_all _ _ _ _ _ e4 i)⟩

/-- Under the precondition, on every device, every entry of each of the five inputs is a real number. -/
theorem finite_of_pre [hKernelIdeal : Cert.KernelIdeal.Facts] [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsR (m ((c.tc : Thread Cert.KernelIdeal.nD Cert.KernelIdeal.τ).loc Cert.KernelIdeal.main_arg0) i))
    ∧ (∀ i, IsR (m ((c.tc : Thread Cert.KernelIdeal.nD Cert.KernelIdeal.τ).loc Cert.KernelIdeal.main_arg1) i))
    ∧ (∀ i, IsR (m ((c.tc : Thread Cert.KernelIdeal.nD Cert.KernelIdeal.τ).loc Cert.KernelIdeal.main_arg2) i))
    ∧ (∀ i, IsR (m ((c.tc : Thread Cert.KernelIdeal.nD Cert.KernelIdeal.τ).loc Cert.KernelIdeal.main_arg3) i))
    ∧ (∀ i, IsR (m ((c.tc : Thread Cert.KernelIdeal.nD Cert.KernelIdeal.τ).loc Cert.KernelIdeal.main_arg4) i)) :=
  fn_real _ _ _ _ _ (h c)

end Cert.Finite

end
-- ==== Proof.lean ====
/-
  One step of a recurrent cell with ternary weights: the kernel program against its reference, over the extended reals.

  With tern w = min 1 (max (-1) (round-half-even w)), both programs compute
      hidden_new = tern (x · tern(Wi)ᵀ + hidden · tern(Wh)ᵀ),    output = hidden_new · tern(Wo)ᵀ.
  The kernel program quantizes the three weight matrices on the host, then runs two kernels over 16 x 16 grids: each
  accumulates its products one group of 256 contraction indices at a time into a block of 512 rows, the first kernel
  rounding and clamping the block after its last group.  Addition of extended reals is commutative and associative, so
  the blockwise running sums are the whole sums.  The reference writes the quantization as w + (q - w) with
  q = clamp (round w): this is q exactly when w is a real number — which is where the precondition (every input finite)
  is used, for the three weight matrices directly and for the pre-activation because a finite sum of products of real
  numbers is real.
  The three frames: the two kernel programs' are the generated frame proofs; the reference's is its run with the
  results dropped.  The kernel program and its idealization differ by no rewrite.
-/
import proofs.«108138_j15015205666917_2_alg».proof.Defs
import proofs.«108138_j15015205666917_2_alg».proof.Proof.Gen.Kernel
import proofs.«108138_j15015205666917_2_alg».proof.Proof.Gen.Kernel.Frame
import proofs.«108138_j15015205666917_2_alg».proof.Proof.Gen.KernelIdeal
import proofs.«108138_j15015205666917_2_alg».proof.Proof.Gen.KernelIdeal.Frame
import proofs.«108138_j15015205666917_2_alg».proof.Proof.Gen.ReferenceIdeal
import proofs.«108138_j15015205666917_2_alg».proof.Proof.Gen.Pre_finite_inputs
import proofs.«108138_j15015205666917_2_alg».proof.Proof.Gen.ReferenceIdeal.Run
import proofs.«108138_j15015205666917_2_alg».proof.Proof.Gen.ReferenceIdeal.Read
import proofs.«108138_j15015205666917_2_alg».proof.Proof.KValue
import proofs.«108138_j15015205666917_2_alg».proof.Proof.RefSpec
import proofs.«108138_j15015205666917_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the output and the new hidden state at the specification's functions of the arguments. -/
theorem algebraic : Cert.algebraic_KernelIdeal_ReferenceIdeal := by
  intro m ρ m' ρ' hpre hagree
  refine ⟨fun c => Cert.KernelIdeal.KValue.specO m c, fun c => Cert.KernelIdeal.KValue.specH m c,
    Cert.KernelIdeal.KValue.run m ρ, ?_⟩
  refine (θ_run Cert.ReferenceIdeal.defs _ _).mono (fun _ h c => ?_) (Cert.ReferenceIdeal.Value.run (F := Ideal) m' ρ')
  obtain ⟨f0, f1, f2, f3, f4⟩ := Cert.Finite.finite_of_pre m hpre c
  obtain ⟨a0, a1, a2, a3, a4⟩ := hagree c
  refine ⟨(h c).1.trans ?_, (h c).2.1.trans ?_, (h c).2.2⟩
  · rw [Cert.ReferenceIdeal.Read.val_main_v22_eq, a0, a1, a2, a3, a4]
    exact Cert.RefSpec.ref_outp _ _ _ _ _ f0 f1 f2 f3 f4
  · rw [Cert.ReferenceIdeal.Read.val_main_v16_eq, a0, a1, a2, a3]
    exact Cert.RefSpec.ref_hnew _ _ _ _ f0 f1 f2 f3

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
